-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S384x128 : Shape := ⟨2, ![384, 128]⟩
abbrev S384 : Shape := ⟨1, ![384]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part2 {F : FTy → Type} [FloatOps F] (main_arg8 : FVec F S384 .f32) (main_v33 : IVec S_ 1) : IVec S_ 1 :=
  let main_v34 : FVec F S384 .f32 := Host.absf main_arg8
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  main_v38

def fn_part1 {F : FTy → Type} [FloatOps F] (main_arg5 : FVec F S384x128 .f32) (main_arg6 : FVec F S384x128 .f32) (main_arg7 : FVec F S384 .f32) (main_arg8 : FVec F S384 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S384x128 .f32 := Host.absf main_arg5
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S384x128 .f32 := Host.absf main_arg6
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S100000x128 .f32) (main_arg3 : FVec F S128x128 .f32) (main_arg4 : FVec F S128 .f32) (main_arg5 : FVec F S384x128 .f32) (main_arg6 : FVec F S384x128 .f32) (main_arg7 : FVec F S384 .f32) (main_arg8 : FVec F S384 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S384x128 : Shape := ⟨2, ![384, 128]⟩
abbrev S384 : Shape := ⟨1, ![384]⟩
abbrev S1000x128 : Shape := ⟨2, ![1000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S128x384 : Shape := ⟨2, ![128, 384]⟩
abbrev S1x384 : Shape := ⟨2, ![1, 384]⟩
abbrev S1000x384 : Shape := ⟨2, ![1000, 384]⟩

abbrev nBuf : Space → Nat
  | .hbm => 74
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000x128, .f32⟩
  | .hbm, ⟨3, _⟩ => ⟨S128x128, .f32⟩
  | .hbm, ⟨4, _⟩ => ⟨S128, .f32⟩
  | .hbm, ⟨5, _⟩ => ⟨S384x128, .f32⟩
  | .hbm, ⟨6, _⟩ => ⟨S384x128, .f32⟩
  | .hbm, ⟨7, _⟩ => ⟨S384, .f32⟩
  | .hbm, ⟨8, _⟩ => ⟨S384, .f32⟩
  | .hbm, ⟨9, _⟩ => ⟨S100000x128, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S128x384, .f32⟩
  | .hbm, ⟨70, _⟩ => ⟨S128x384, .f32⟩
  | .hbm, ⟨71, _⟩ => ⟨S1x384, .f32⟩
  | .hbm, ⟨72, _⟩ => ⟨S1x384, .f32⟩
  | .hbm, ⟨73, _⟩ => ⟨S100000x128, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S128x384, .f32⟩
  | .local _ .vmem, ⟨10, _⟩ => ⟨S128x384, .f32⟩
  | .local _ .vmem, ⟨11, _⟩ => ⟨S1x384, .f32⟩
  | .local _ .vmem, ⟨12, _⟩ => ⟨S1x384, .f32⟩
  | .local _ .vmem, ⟨13, _⟩ => ⟨S1000x128, .f32⟩
  | .local _ .vmem, ⟨14, _⟩ => ⟨S1000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S384x128_S128x384_1_0 : S384x128.Transposes [1, 0] S128x384
  shapeCasts_S384_S1x384 : S384.ShapeCasts S1x384
  shapeCasts_S1000x128_S1000x128 : S1000x128.ShapeCasts S1000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1000x384 : S1x384.Broadcasts S1000x384
  slices_S1000x384_o0_0_S1000x128 : S1000x384.Slices ![0, 0] S1000x128
  slices_S1000x384_o0_128_S1000x128 : S1000x384.Slices ![0, 128] S1000x128
  slices_S1000x384_o0_256_S1000x128 : S1000x384.Slices ![0, 256] S1000x128
  dot_S1000x128_S128x128_S1000x128_1_0_0_1_n_n_wf : DotDims.WF S1000x128 S128x128 S1000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S1000x128_S128x384_S1000x384_1_0_0_1_n_n_wf : DotDims.WF S1000x128 S128x384 S1000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S100000x128.size a
  hwx0_2 : ∀ i : grid0.Coords, EltTy.bits .f32 = 32 ∨ (Rect.block (s := S100000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S100000x128.size a
  hwx1_0 : ∀ i : grid1.Coords, EltTy.bits .f32 = 32 ∨ (Rect.block (s := S100000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S100000x128.size a
  hwx1_1 : ∀ i : grid1.Coords, EltTy.bits .f32 = 32 ∨ (Rect.block (s := S100000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x384.size a ≤ S128x384.size a
  hwx1_2 : ∀ i : grid1.Coords, EltTy.bits .f32 = 32 ∨ (Rect.block (s := S128x384) S128x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x384.size a ≤ S128x384.size a
  hwx1_3 : ∀ i : grid1.Coords, EltTy.bits .f32 = 32 ∨ (Rect.block (s := S128x384) S128x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x384.size a ≤ S1x384.size a
  hwx1_4 : ∀ i : grid1.Coords, EltTy.bits .f32 = 32 ∨ (Rect.block (s := S1x384) S1x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x384.size a ≤ S1x384.size a
  hwx1_5 : ∀ i : grid1.Coords, EltTy.bits .f32 = 32 ∨ (Rect.block (s := S1x384) S1x384.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x128.size a ≤ S100000x128.size a
  hwx1_6 : ∀ i : grid1.Coords, EltTy.bits .f32 = 32 ∨ (Rect.block (s := S100000x128) S1000x128.size (cc1_transform_6 i) (hinb1_6 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S1000x128_S128x384_S1000x384_1_0_0_1_n_n : DotDims S1000x128 S128x384 S1000x384 where
  lhsContracting := [1]
  rhsContracting := [0]
  lhsNonContracting := [0]
  rhsNonContracting := [1]
  lhsBatch := []
  rhsBatch := []
  wf := dot_S1000x128_S128x384_S1000x384_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S128x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S128x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S1x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S1000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S384x128 : Shape := ⟨2, ![384, 128]⟩
abbrev S384 : Shape := ⟨1, ![384]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S128x384 : Shape := ⟨2, ![128, 384]⟩
abbrev S100000x384 : Shape := ⟨2, ![100000, 384]⟩
abbrev S1x384 : Shape := ⟨2, ![1, 384]⟩

abbrev nBuf : Space → Nat
  | .hbm => 112
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000x128, .f32⟩
  | .hbm, ⟨3, _⟩ => ⟨S128x128, .f32⟩
  | .hbm, ⟨4, _⟩ => ⟨S128, .f32⟩
  | .hbm, ⟨5, _⟩ => ⟨S384x128, .f32⟩
  | .hbm, ⟨6, _⟩ => ⟨S384x128, .f32⟩
  | .hbm, ⟨7, _⟩ => ⟨S384, .f32⟩
  | .hbm, ⟨8, _⟩ => ⟨S384, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S128x384, .f32⟩
  | .hbm, ⟨70, _⟩ => ⟨S100000x384, .f32⟩
  | .hbm, ⟨71, _⟩ => ⟨S1x384, .f32⟩
  | .hbm, ⟨72, _⟩ => ⟨S100000x384, .f32⟩
  | .hbm, ⟨73, _⟩ => ⟨S100000x384, .f32⟩
  | .hbm, ⟨74, _⟩ => ⟨S128x384, .f32⟩
  | .hbm, ⟨75, _⟩ => ⟨S100000x384, .f32⟩
  | .hbm, ⟨76, _⟩ => ⟨S1x384, .f32⟩
  | .hbm, ⟨77, _⟩ => ⟨S100000x384, .f32⟩
  | .hbm, ⟨78, _⟩ => ⟨S100000x384, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S_, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S100000x128, .f32⟩
  | .hbm, ⟨96, _⟩ => ⟨S100000x128, .f32⟩
  | .hbm, ⟨97, _⟩ => ⟨S_, .f32⟩
  | .hbm, ⟨98, _⟩ => ⟨S100000x128, .f32⟩
  | .hbm, ⟨99, _⟩ => ⟨S100000x128, .f32⟩
  | .hbm, ⟨100, _⟩ => ⟨S_, .f32⟩
  | .hbm, ⟨101, _⟩ => ⟨S100000x128, .f32⟩
  | .hbm, ⟨102, _⟩ => ⟨S100000x128, .f32⟩
  | .hbm, ⟨103, _⟩ => ⟨S100000x128, .f32⟩
  | .hbm, ⟨104, _⟩ => ⟨S100000x128, .f32⟩
  | .hbm, ⟨105, _⟩ => ⟨S100000x128, .f32⟩
  | .hbm, ⟨106, _⟩ => ⟨S_, .f32⟩
  | .hbm, ⟨107, _⟩ => ⟨S100000x128, .f32⟩
  | .hbm, ⟨108, _⟩ => ⟨S100000x128, .f32⟩
  | .hbm, ⟨109, _⟩ => ⟨S100000x128, .f32⟩
  | .hbm, ⟨110, _⟩ => ⟨S100000x128, .f32⟩
  | .hbm, ⟨111, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_9 : Ref sig .tc := ⟨.hbm, 88, rfl⟩
abbrev main_v66 : Ref sig .tc := ⟨.hbm, 89, rfl⟩
abbrev main_v67 : Ref sig .tc := ⟨.hbm, 90, rfl⟩
abbrev main_cst_10 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_11 : Ref sig .tc := ⟨.hbm, 97, rfl⟩
abbrev main_v73 : Ref sig .tc := ⟨.hbm, 98, rfl⟩
abbrev main_v74 : Ref sig .tc := ⟨.hbm, 99, rfl⟩
abbrev main_cst_12 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_13 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S384x128_S128x384_1_0 : S384x128.Transposes [1, 0] S128x384
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x384_S100000x384_1_0_0_1_n_n_wf : DotDims.WF S100000x128 S128x384 S100000x384 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf

class Facts : Prop extends Facts₀ where

variable [Facts]
-- ==== Proof.KRun.lean ====
/-
  The idealized kernel's run with its result named.  The program is two grid regions with host
  operations between them; every weakly fair execution terminates, and at the end the result array
  holds what the second region's hundred row blocks wrote back, folded over the array the region
  found (`arrAt` of the second region's proof data at the last grid point), while the nine argument
  arrays are as launched.  The value of that fold is computed in the modules that import this one.
-/
import proofs.«155771_j47330539602429_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the five segments (first region, three host stretches, second region), read at the
    result buffer as well as at the arguments: the last boundary's contents at the result are the
    second region's write-backs folded over the array as that region found it. -/
theorem run_out : θ_run defs (onTc (τ := τ) (main (F := F))) ⟨m, fun _ => 0, ρ⟩ (fun r => ∀ c : Dev nD,
      r.2.mem ((c.tc : Thread nD τ).loc main_v51) = (dat1 (V4 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v51 (by decide))).trans (W5_arr m ρ c 6),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.KernelIdeal.RunV

end
-- ==== Proof.KMatmul.lean ====
/-
  A matrix product into a zero accumulator, read at one entry over the extended reals: the entry in
  row p and column q is the sum over the contracted axis (128 positions) of the left operand's row p
  times the right operand's column q.  Stated for the two products of the idealized kernel: the
  [1000,128]·[128,128] product of the first region and the [1000,128]·[128,384] products of the second.
-/
import proofs.«155771_j47330539602429_1_alg».proof.Proof.Gen.KernelIdeal
import Idealize.ShloMosaic.Lib.ValueIdx
import Idealize.ShloMosaic.PureOps.Ideal.Laws

noncomputable section

namespace Cert.KernelIdeal.MatmulAt

open Cert.KernelIdeal Cert.KernelIdeal.Gen Idealize.ShloMosaic Idealize.ShloMosaic.ValueIdx

/-! ### The record `dot_S1000x128_S128x128_S1000x128_1_0_0_1_n_n`: rows of the left operand against columns of the right -/

theorem sq_l0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem sq_l1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
theorem sq_r0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
theorem sq_r1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- Entry (p, q) of the product into a zero accumulator is the sum over the 128 contracted
    positions of row p of the left operand against column q of the right. -/
theorem sq_apply (l : FVec Ideal S1000x128 .bf16) (r : FVec Ideal S128x128 .bf16) (p : Fin 1000) (q : Fin 128) :
    matmul dot_S1000x128_S128x128_S1000x128_1_0_0_1_n_n none l r (constant (F := Ideal) S1000x128 .f32 0x00000000#32) (ix2 p q)
      = ∑ k : Fin 128, l (ix2 p k) * r (ix2 k q) := by
  refine (Ideal.matmul_constant_zero_apply dot_S1000x128_S128x128_S1000x128_1_0_0_1_n_n none l r (ix2 p q)).trans ?_
  rw [← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 p q) ((contrEquiv1 dot_S1000x128_S128x128_S1000x128_1_0_0_1_n_n 128 rfl rfl).symm k) = ix2 p k := funext fun a => Fin.ext (by
    match a with
    | ⟨0, _⟩ => exact sq_l0 _ _
    | ⟨1, _⟩ => exact (sq_l1 _ _).trans hk)
  have er : dot_S1000x128_S128x128_S1000x128_1_0_0_1_n_n.rhsIdx (ix2 p q) ((contrEquiv1 dot_S1000x128_S128x128_S1000x128_1_0_0_1_n_n 128 rfl rfl).symm k) = ix2 k q := funext fun a => Fin.ext (by
    match a with
    | ⟨0, _⟩ => exact (sq_r0 _ _).trans hk
    | ⟨1, _⟩ => exact sq_r1 _ _)
  rw [el, er]

/-! ### The record `dot_S1000x128_S128x384_S1000x384_1_0_0_1_n_n`: rows of the left operand against columns of the right -/

theorem wide_l0 (i : S1000x384.Idx) (q : dot_S1000x128_S128x384_S1000x384_1_0_0_1_n_n.contr.Idx) :
    (dot_S1000x128_S128x384_S1000x384_1_0_0_1_n_n.lhsIdx i q 0).val = (i 0).val := by
  unfold DotDims.lhsIdx
  rw [dif_neg (show ¬(0 : Fin S1000x128.rank) ∈ dot_S1000x128_S128x384_S1000x384_1_0_0_1_n_n.lhsBatch by decide), dif_pos (show (0 : Fin S1000x128.rank) ∈ dot_S1000x128_S128x384_S1000x384_1_0_0_1_n_n.lhsNonContracting by decide)]
  rfl
theorem wide_l1 (i : S1000x384.Idx) (q : dot_S1000x128_S128x384_S1000x384_1_0_0_1_n_n.contr.Idx) :
    (dot_S1000x128_S128x384_S1000x384_1_0_0_1_n_n.lhsIdx i q 1).val = (q ⟨0, by decide⟩).val :=
  dot_S1000x128_S128x384_S1000x384_1_0_0_1_n_n.lhsIdx_val_of_single rfl i q
theorem wide_r0 (i : S1000x384.Idx) (q : dot_S1000x128_S128x384_S1000x384_1_0_0_1_n_n.contr.Idx) :
    (dot_S1000x128_S128x384_S1000x384_1_0_0_1_n_n.rhsIdx i q 0).val = (q ⟨0, by decide⟩).val :=
  dot_S1000x128_S128x384_S1000x384_1_0_0_1_n_n.rhsIdx_val_of_single rfl i q
theorem wide_r1 (i : S1000x384.Idx) (q : dot_S1000x128_S128x384_S1000x384_1_0_0_1_n_n.contr.Idx) :
    (dot_S1000x128_S128x384_S1000x384_1_0_0_1_n_n.rhsIdx i q 1).val = (i 1).val := by
  unfold DotDims.rhsIdx
  rw [dif_neg (show ¬(1 : Fin S128x384.rank) ∈ dot_S1000x128_S128x384_S1000x384_1_0_0_1_n_n.rhsBatch by decide), dif_pos (show (1 : Fin S128x384.rank) ∈ dot_S1000x128_S128x384_S1000x384_1_0_0_1_n_n.rhsNonContracting by decide)]
  rfl

/-- Entry (p, q) of the product into a zero accumulator is the sum over the 128 contracted
    positions of row p of the left operand against column q of the right. -/
theorem wide_apply (l : FVec Ideal S1000x128 .bf16) (r : FVec Ideal S128x384 .bf16) (p : Fin 1000) (q : Fin 384) :
    matmul dot_S1000x128_S128x384_S1000x384_1_0_0_1_n_n none l r (constant (F := Ideal) S1000x384 .f32 0x00000000#32) (ix2 p q)
      = ∑ k : Fin 128, l (ix2 p k) * r (ix2 k q) := by
  refine (Ideal.matmul_constant_zero_apply dot_S1000x128_S128x384_S1000x384_1_0_0_1_n_n none l r (ix2 p q)).trans ?_
  rw [← Equiv.sum_comp (contrEquiv1 dot_S1000x128_S128x384_S1000x384_1_0_0_1_n_n 128 rfl rfl).symm]
  refine Finset.sum_congr rfl fun k _ => ?_
  have hk := contrEquiv1_symm_val dot_S1000x128_S128x384_S1000x384_1_0_0_1_n_n 128 rfl rfl k
  have el : dot_S1000x128_S128x384_S1000x384_1_0_0_1_n_n.lhsIdx (ix2 p q) ((contrEquiv1 dot_S1000x128_S128x384_S1000x384_1_0_0_1_n_n 128 rfl rfl).symm k) = ix2 p k := funext fun a => Fin.ext (by
    match a with
    | ⟨0, _⟩ => exact wide_l0 _ _
    | ⟨1, _⟩ => exact (wide_l1 _ _).trans hk)
  have er : dot_S1000x128_S128x384_S1000x384_1_0_0_1_n_n.rhsIdx (ix2 p q) ((contrEquiv1 dot_S1000x128_S128x384_S1000x384_1_0_0_1_n_n 128 rfl rfl).symm k) = ix2 k q := funext fun a => Fin.ext (by
    match a with
    | ⟨0, _⟩ => exact (wide_r0 _ _).trans hk
    | ⟨1, _⟩ => exact wide_r1 _ _)
  rw [el, er]

end Cert.KernelIdeal.MatmulAt

end
-- ==== Proof.GruSpec.lean ====
/-
  The function both programs compute, stated once over the extended reals.

  A graph-convolution step feeds a gated recurrent cell.  With `h` the aggregated node features
  (100000 rows of 128), `xp` the previous state, `wi`, `wh` the two weight matrices already
  transposed to [128, 384] and `bi`, `bh` the two bias rows of 384 entries, row `r` of the two
  gate pre-activations is
      gi c = Σ_k h[r,k]·wi[k,c] + bi[c]        gh c = Σ_k xp[r,k]·wh[k,c] + bh[c]
  and the new state at column `j` is, with σ x = 1 / (1 + e^(−x)),
      ρ = σ (gi j + gh j)     z = σ (gi (128+j) + gh (128+j))     n = tanh (gi (256+j) + ρ · gh (256+j))
      out[r,j] = (1 − z)·n + z·xp[r,j].
  The constant 1 is kept as the single-precision word both programs spell; that it is the real
  number one is proved here once.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A matrix of extended reals with literal extents. -/
abbrev Arr2 (a b : Nat) : Type := (⟨2, ![a, b]⟩ : Shape).Idx → EReal
/-- A row of extended reals with a literal extent. -/
abbrev Arr1 (a : Nat) : Type := (⟨1, ![a]⟩ : Shape).Idx → EReal

/-- The word 0x3F800000 read as an extended real. -/
abbrev one : EReal := Ideal.ofBits .f32 0x3F800000#32

/-- That word is the number one. -/
theorem one_eq : one = 1 := by
  simp [one, Ideal.ofBits, Ideal.ieee, -EReal.coe_mul]; norm_num

/-- Entry (r, c) of a matrix product: row r against column c. -/
def mm {M K N : Nat} (x : Arr2 M K) (w : Arr2 K N) (r : Fin M) (c : Fin N) : EReal :=
  ∑ k : Fin K, x (ix2 r k) * w (ix2 k c)

/-- Entry (r, c) of a gate pre-activation: the product plus the bias of column c. -/
def gate {M : Nat} (h : Arr2 M 128) (w : Arr2 128 384) (b : Arr1 384) (r : Fin M) (c : Fin 384) : EReal :=
  mm h w r c + b (ix1 c)

/-- The logistic function spelt with the word for one: 1 / (1 + e^(−x)). -/
def sig (x : EReal) : EReal := Ideal.div one (one + Ideal.exp (-x))

/-- It is the library's logistic function. -/
theorem sig_eq (x : EReal) : sig x = Ideal.logistic x := by
  unfold sig Ideal.logistic
  rw [one_eq]

/-- Column j of the first, second and third 128-wide band of the 384 gate columns. -/
def lo (j : Fin 128) : Fin 384 := ⟨0 + j.val, by omega⟩
def mid (j : Fin 128) : Fin 384 := ⟨128 + j.val, by omega⟩
def hi (j : Fin 128) : Fin 384 := ⟨256 + j.val, by omega⟩

/-- The new state at row r, column j. -/
def gruAt {M : Nat} (h xp : Arr2 M 128) (wi wh : Arr2 128 384) (bi bh : Arr1 384) (r : Fin M) (j : Fin 128) : EReal :=
  (one - sig (gate h wi bi r (mid j) + gate xp wh bh r (mid j)))
      * Ideal.tanh (gate h wi bi r (hi j) + sig (gate h wi bi r (lo j) + gate xp wh bh r (lo j)) * gate xp wh bh r (hi j))
    + sig (gate h wi bi r (mid j) + gate xp wh bh r (mid j)) * xp (ix2 r j)

/-- The new state at a row depends on that row of the two feature matrices only, and on the
    weights and biases entry by entry. -/
theorem gruAt_congr {M M' : Nat} (h xp : Arr2 M 128) (h' xp' : Arr2 M' 128) (wi wh wi' wh' : Arr2 128 384)
    (bi bh bi' bh' : Arr1 384) (r : Fin M) (r' : Fin M') (j : Fin 128)
    (eh : ∀ k : Fin 128, h (ix2 r k) = h' (ix2 r' k)) (ex : ∀ k : Fin 128, xp (ix2 r k) = xp' (ix2 r' k))
    (ewi : ∀ (k : Fin 128) (c : Fin 384), wi (ix2 k c) = wi' (ix2 k c))
    (ewh : ∀ (k : Fin 128) (c : Fin 384), wh (ix2 k c) = wh' (ix2 k c))
    (ebi : ∀ c : Fin 384, bi (ix1 c) = bi' (ix1 c)) (ebh : ∀ c : Fin 384, bh (ix1 c) = bh' (ix1 c)) :
    gruAt h xp wi wh bi bh r j = gruAt h' xp' wi' wh' bi' bh' r' j := by
  unfold gruAt gate mm
  simp only [eh, ex, ewi, ewh, ebi, ebh]

/-- The whole new state. -/
def gru (h xp : Arr2 100000 128) (wi wh : Arr2 128 384) (bi bh : Arr1 384) : Arr2 100000 128 :=
  fun i => gruAt h xp wi wh bi bh ⟨(i 0).val, (i 0).isLt⟩ ⟨(i 1).val, (i 1).isLt⟩

/-- The whole new state at an entry written by its coordinates. -/
theorem gru_apply (h xp : Arr2 100000 128) (wi wh : Arr2 128 384) (bi bh : Arr1 384) (r : Fin 100000) (j : Fin 128) :
    gru h xp wi wh bi bh (ix2 r j) = gruAt h xp wi wh bi bh r j := rfl

/-- The product of the node features with the convolution's weight, as a whole matrix. -/
def xw (x : Arr2 100000 128) (w : Arr2 128 128) : Arr2 100000 128 :=
  fun i => mm x w ⟨(i 0).val, (i 0).isLt⟩ ⟨(i 1).val, (i 1).isLt⟩

/-- The product at an entry written by its coordinates. -/
theorem xw_apply (x : Arr2 100000 128) (w : Arr2 128 128) (r : Fin 100000) (c : Fin 128) :
    xw x w (ix2 r c) = mm x w r c := rfl

end Cert.Spec

end
-- ==== Proof.Region0.lean ====
/-
  The first grid region: one hundred row blocks of a matrix product.

  Grid point t loads rows 1000·t … 1000·t + 999 of the node features (a [1000,128] block) and the
  whole [128,128] weight, multiplies them into a zero accumulator and writes the [1000,128] result
  back as rows 1000·t … of the output.  Hence the output array ends holding, at (r, c), the sum over k
  of x[r,k]·w[k,c]: every row lies in exactly one block, and within its block it is computed from the
  same row of x.
-/
import proofs.«155771_j47330539602429_1_alg».proof.Proof.Gen.KernelIdeal.Frame
import proofs.«155771_j47330539602429_1_alg».proof.Proof.KMatmul
import proofs.«155771_j47330539602429_1_alg».proof.Proof.GruSpec
import Idealize.ShloMosaic.Lib.Pipeline.Value

set_option maxRecDepth 16384

noncomputable section

namespace Cert.KernelIdeal.First

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block's arithmetic at entry (p, q): row p of the loaded rows against column q of the weight
    (rounding the operands to a narrower format is the identity on the extended reals). -/
theorem pay_apply (x0 : Vec Ideal S1000x128 .f32) (x1 : Vec Ideal S128x128 .f32) (p : Fin 1000) (q : Fin 128) :
    k0_pay1 x0 x1 (ix2 p q) = ∑ k : Fin 128, x0 (ix2 p k) * x1 (ix2 k q) := by
  unfold k0_pay1
  exact MatmulAt.sq_apply (truncf .bf16 x0 bitsLt_bf16_f32) (truncf .bf16 x1 bitsLt_bf16_f32) p q

/-- Where the three windows sit at grid point t: the row-block windows at block row t, the weight
    window at the origin. -/
theorem where_ : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 100 := by have h := t.isLt; have e : cfg0.N = 100 := N_0; omega

/-- Row p of the feature block at point t is row 1000·t + p of the features. -/
theorem blk_x (c : Dev nD) (t : Fin cfg0.N) (p : Fin 1000) (k : Fin 128) :
    (iblk0 (V0 m ρ) c 0 t : S1000x128.Idx → EReal) (ix2 p k)
      = (m ((c : Thread nD τ).loc main_arg0) : S100000x128.Idx → EReal) (ix2 ⟨1000 * t.val + p.val, by have := t_lt t; omega⟩ k) := by
  obtain ⟨e0, e1, -⟩ := where_ t
  unfold iblk0
  rw [View.read_apply]
  show (m ((c : Thread nD τ).loc main_arg0) : S100000x128.Idx → EReal) _ = _
  refine congrArg _ (funext fun a => Fin.ext ?_)
  match a with
  | ⟨0, _⟩ => show win0_0.index t (0 : Fin 2) * 1000 + 1 * p.val = 1000 * t.val + p.val; rw [e0]; omega
  | ⟨1, _⟩ => show win0_0.index t (1 : Fin 2) * 128 + 1 * k.val = k.val; rw [e1]; omega

/-- The weight block at every point is the whole weight. -/
theorem blk_w (c : Dev nD) (t : Fin cfg0.N) (k : Fin 128) (q : Fin 128) :
    (iblk0 (V0 m ρ) c 1 t : S128x128.Idx → EReal) (ix2 k q)
      = (m ((c : Thread nD τ).loc main_arg3) : S128x128.Idx → EReal) (ix2 k q) := by
  obtain ⟨-, -, e0, e1, -⟩ := where_ t
  unfold iblk0
  rw [View.read_apply]
  show (m ((c : Thread nD τ).loc main_arg3) : S128x128.Idx → EReal) _ = _
  refine congrArg _ (funext fun a => Fin.ext ?_)
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- What point t writes back is block t of the whole product. -/
theorem flushed_eq (c : Dev nD) (t : Fin cfg0.N) :
    (dat0 (V0 m ρ) c).flushed 2 t = ((cfg0.win 2).blk t).view.read (Elt Ideal)
      (Spec.xw (m ((c : Thread nD τ).loc main_arg0)) (m ((c : Thread nD τ).loc main_arg3))) := by
  show (cfg0.win 2).cut (grid0.coords t) ((dat0 (V0 m ρ) c).after 2 t) = _
  rw [after0_2]
  unfold out0_2
  rw [View.canon_unit_zero hz]
  simp only [View.ld_unit_zero (S := S1000x128) hz, View.ld_unit_zero (S := S128x128) hz]
  obtain ⟨-, -, -, -, e0, e1⟩ := where_ t
  funext j
  obtain ⟨p, q, rfl⟩ : ∃ (p : Fin 1000) (q : Fin 128), j = ix2 p q := ⟨j 0, j 1, @eq_ix2 1000 128 j⟩
  rw [View.read_apply]
  refine (pay_apply _ _ p q).trans ?_
  unfold Spec.xw Spec.mm
  refine Finset.sum_congr rfl fun k _ => ?_
  rw [blk_x m ρ c t p k, blk_w m ρ c t k q]
  have hr : (⟨(((cfg0.win 2).blk t).view.emb (ix2 p q) 0).val, (((cfg0.win 2).blk t).view.emb (ix2 p q) 0).isLt⟩ : Fin 100000)
      = ⟨1000 * t.val + p.val, by have := t_lt t; omega⟩ := Fin.ext (by
    show win0_2.index t (0 : Fin 2) * 1000 + 1 * p.val = 1000 * t.val + p.val; rw [e0]; omega)
  have hc : (⟨(((cfg0.win 2).blk t).view.emb (ix2 p q) 1).val, (((cfg0.win 2).blk t).view.emb (ix2 p q) 1).isLt⟩ : Fin 128) = q := Fin.ext (by
    show win0_2.index t (1 : Fin 2) * 128 + 1 * q.val = q.val; rw [e1]; omega)
  rw [hr, hc]

/-- Every entry of the output lies in the block of the point its row belongs to. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 1000, by rw [show cfg0.N = 100 from N_0]; omega⟩
  obtain ⟨-, -, -, -, e0, e1⟩ := where_ t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 1000 ≤ (i 0).val ∧ (i 0).val < win0_2.index t (0 : Fin 2) * 1000 + 1000
    rw [e0]; show (i 0).val / 1000 * 1000 ≤ (i 0).val ∧ (i 0).val < (i 0).val / 1000 * 1000 + 1000; omega
  | ⟨1, _⟩ =>
    show win0_2.index t (1 : Fin 2) * 128 ≤ (i 1).val ∧ (i 1).val < win0_2.index t (1 : Fin 2) * 128 + 128
    rw [e1]; omega

/-- The output array of the first region ends holding the whole product. -/
theorem final (c : Dev nD) : (dat0 (V0 m ρ) c).arrAt 2 cfg0.N
    = Spec.xw (m ((c : Thread nD τ).loc main_arg0)) (m ((c : Thread nD τ).loc main_arg3)) :=
  (dat0 (V0 m ρ) c).arrAt_eq_of_cover 2 _ (fun t _ => flushed_eq m ρ c t) cover

end Cert.KernelIdeal.First

end
-- ==== Proof.GruPay.lean ====
/-
  The second region's arithmetic on one block, read at one entry.

  From a [1000,128] block of aggregated features `x0`, the matching block of the previous state
  `x3`, the two [128,384] weights and the two [1,384] bias rows the body forms the two [1000,384]
  gate pre-activations (a product into a zero accumulator plus the bias row repeated down the rows),
  cuts each into three 128-wide bands, and combines them with the logistic function and tanh.  At
  entry (p, j) that is the specification's `gruAt` on the blocks: the products are sums over the
  contracted axis, band b of column j is column 128·b + j, and everything else is entry by entry.
-/
import proofs.«155771_j47330539602429_1_alg».proof.Proof.Gen.KernelIdeal.Skeleton
import proofs.«155771_j47330539602429_1_alg».proof.Proof.KMatmul
import proofs.«155771_j47330539602429_1_alg».proof.Proof.GruSpec
import Idealize.ShloMosaic.Lib.Pipeline.Value

noncomputable section

namespace Cert.KernelIdeal.Cell

open Cert.KernelIdeal Cert.KernelIdeal.Gen Idealize.ShloMosaic Idealize.ShloMosaic.ValueIdx

/-- A [1,384] row as its 384 entries. -/
def row (v : S1x384.Idx → EReal) : Spec.Arr1 384 := fun i => v (ix2 (0 : Fin 1) (⟨(i 0).val, (i 0).isLt⟩ : Fin 384))

/-- Column j of the band that starts at column `off` is column off + j of the wide matrix. -/
theorem band_apply (off : Nat) (hoff : off + 128 ≤ 384) (v : FVec Ideal S1000x384 .f32) (h : S1000x384.Slices ![0, off] S1000x128)
    (p : Fin 1000) (j : Fin 128) :
    extractStridedSlice S1000x128 ![0, off] v h (ix2 p j) = v (ix2 p (⟨off + j.val, by omega⟩ : Fin 384)) :=
  extractStridedSlice_apply ![0, off] v h (ix2 p j) (ix2 p (⟨off + j.val, by omega⟩ : Fin 384)) fun a => by
    match a with
    | ⟨0, _⟩ => show p.val = 0 + p.val; omega
    | ⟨1, _⟩ => rfl

theorem band_lo (v : FVec Ideal S1000x384 .f32) (p : Fin 1000) (j : Fin 128) :
    extractStridedSlice S1000x128 ![0, 0] v slices_S1000x384_o0_0_S1000x128 (ix2 p j) = v (ix2 p (Spec.lo j)) :=
  band_apply 0 (by omega) v _ p j
theorem band_mid (v : FVec Ideal S1000x384 .f32) (p : Fin 1000) (j : Fin 128) :
    extractStridedSlice S1000x128 ![0, 128] v slices_S1000x384_o0_128_S1000x128 (ix2 p j) = v (ix2 p (Spec.mid j)) :=
  band_apply 128 (by omega) v _ p j
theorem band_hi (v : FVec Ideal S1000x384 .f32) (p : Fin 1000) (j : Fin 128) :
    extractStridedSlice S1000x128 ![0, 256] v slices_S1000x384_o0_256_S1000x128 (ix2 p j) = v (ix2 p (Spec.hi j)) :=
  band_apply 256 (by omega) v _ p j

/-- A gate pre-activation of the block at (p, c): row p of the block against column c of the weight,
    plus entry c of the bias row (rounding the operands to a narrower format is the identity here). -/
theorem gate_apply (x : Vec Ideal S1000x128 .f32) (w : Vec Ideal S128x384 .f32) (b : Vec Ideal S1x384 .f32) (p : Fin 1000) (c : Fin 384) :
    (addf (matmul dot_S1000x128_S128x384_S1000x384_1_0_0_1_n_n none (truncf .bf16 x bitsLt_bf16_f32) (truncf .bf16 w bitsLt_bf16_f32) (constant (F := Ideal) S1000x384 .f32 0x00000000#32))
        (broadcastTo S1000x384 b broadcasts_S1x384_S1000x384) : FVec Ideal S1000x384 .f32) (ix2 p c)
      = Spec.gate x w (row b) p c := by
  show matmul dot_S1000x128_S128x384_S1000x384_1_0_0_1_n_n none (truncf .bf16 x bitsLt_bf16_f32) (truncf .bf16 w bitsLt_bf16_f32) (constant (F := Ideal) S1000x384 .f32 0x00000000#32) (ix2 p c)
      + broadcastTo S1000x384 b broadcasts_S1x384_S1000x384 (ix2 p c) = _
  rw [MatmulAt.wide_apply, broadcastTo_apply b broadcasts_S1x384_S1000x384 (ix2 p c) (ix2 (0 : Fin 1) c) (fun a => by
    match a with
    | ⟨0, _⟩ => rfl
    | ⟨1, _⟩ => rfl)]
  rfl

/-- The body's stored value at entry (p, j) is the specification on the loaded blocks. -/
theorem pay_apply (x0 x3 : Vec Ideal S1000x128 .f32) (x5 x8 : Vec Ideal S128x384 .f32) (x12 x17 : Vec Ideal S1x384 .f32)
    (p : Fin 1000) (j : Fin 128) :
    k1_pay1 x0 x3 x5 x8 x12 x17 (ix2 p j) = Spec.gruAt x0 x3 x5 x8 (row x12) (row x17) p j := by
  unfold k1_pay1
  simp only [shapeCast_self]
  simp only [addf_apply, mulf_apply, subf_apply, broadcast_apply, logistic, tanh, Ideal.logistic_def, Ideal.tanh_def]
  simp only [band_lo, band_mid, band_hi]
  simp only [gate_apply]
  unfold Spec.gruAt
  simp only [Spec.sig_eq]
  rfl

end Cert.KernelIdeal.Cell

end
-- ==== Proof.Region1.lean ====
/-
  The second grid region: one hundred row blocks of the recurrent cell.

  Grid point t loads rows 1000·t … 1000·t + 999 of the aggregated features and of the previous state,
  and the whole of both weights and both bias rows; it computes the cell on those rows and writes the
  [1000,128] result back as rows 1000·t … of the output.  A row of the cell's result depends on the
  same row of the two feature matrices only, so the output array ends holding the cell of the whole
  arrays: every row lies in exactly one block.  Everything is stated for arbitrary contents `V` of
  the buffers at the region's entry.
-/
import proofs.«155771_j47330539602429_1_alg».proof.Proof.Gen.KernelIdeal.Frame
import proofs.«155771_j47330539602429_1_alg».proof.Proof.GruPay
import Idealize.ShloMosaic.Lib.Pipeline.Value

set_option maxRecDepth 16384

noncomputable section

namespace Cert.KernelIdeal.Second

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The cell of the six arrays as the region finds them. -/
abbrev cellOf (c : Dev nD) : S100000x128.Idx → EReal :=
  Spec.gru (V c main_v46) (V c main_arg2) (V c main_v47) (V c main_v48) (Cell.row (V c main_v49)) (Cell.row (V c main_v50))

/-- Where the three row-block windows sit at grid point t: at block row t. -/
theorem where_ : ∀ t : Fin cfg1.N, win1_0.index t (0 : Fin 2) = t.val ∧ win1_0.index t (1 : Fin 2) = 0
    ∧ win1_1.index t (0 : Fin 2) = t.val ∧ win1_1.index t (1 : Fin 2) = 0
    ∧ win1_6.index t (0 : Fin 2) = t.val ∧ win1_6.index t (1 : Fin 2) = 0 :=
  (by decide +kernel : ∀ t : Fin grid1.N, _)

/-- The weight and bias windows sit at the origin at every point. -/
theorem origin_ : ∀ t : Fin cfg1.N, win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

theorem t_lt (t : Fin cfg1.N) : t.val < 100 := by have h := t.isLt; have e : cfg1.N = 100 := N_1; omega

/-- Row p of the aggregated-feature block at point t is row 1000·t + p of the array. -/
theorem blk_h (c : Dev nD) (t : Fin cfg1.N) (p : Fin 1000) (k : Fin 128) :
    (iblk1 V c 0 t : S1000x128.Idx → EReal) (ix2 p k)
      = (V c main_v46 : S100000x128.Idx → EReal) (ix2 (⟨1000 * t.val + p.val, by have := t_lt t; omega⟩ : Fin 100000) k) := by
  have e0 := (where_ t).1
  have e1 := (where_ t).2.1
  unfold iblk1
  rw [View.read_apply]
  show (V c main_v46 : S100000x128.Idx → EReal) _ = _
  refine congrArg _ (funext fun a => Fin.ext ?_)
  match a with
  | ⟨0, _⟩ => show win1_0.index t (0 : Fin 2) * 1000 + 1 * p.val = 1000 * t.val + p.val; rw [e0]; omega
  | ⟨1, _⟩ => show win1_0.index t (1 : Fin 2) * 128 + 1 * k.val = k.val; rw [e1]; omega

/-- Row p of the previous-state block at point t is row 1000·t + p of the array. -/
theorem blk_xp (c : Dev nD) (t : Fin cfg1.N) (p : Fin 1000) (k : Fin 128) :
    (iblk1 V c 1 t : S1000x128.Idx → EReal) (ix2 p k)
      = (V c main_arg2 : S100000x128.Idx → EReal) (ix2 (⟨1000 * t.val + p.val, by have := t_lt t; omega⟩ : Fin 100000) k) := by
  have e0 := (where_ t).2.2.1
  have e1 := (where_ t).2.2.2.1
  unfold iblk1
  rw [View.read_apply]
  show (V c main_arg2 : S100000x128.Idx → EReal) _ = _
  refine congrArg _ (funext fun a => Fin.ext ?_)
  match a with
  | ⟨0, _⟩ => show win1_1.index t (0 : Fin 2) * 1000 + 1 * p.val = 1000 * t.val + p.val; rw [e0]; omega
  | ⟨1, _⟩ => show win1_1.index t (1 : Fin 2) * 128 + 1 * k.val = k.val; rw [e1]; omega

/-- The input-weight block at every point is the whole array. -/
theorem blk_wi (c : Dev nD) (t : Fin cfg1.N) (k : Fin 128) (q : Fin 384) :
    (iblk1 V c 2 t : S128x384.Idx → EReal) (ix2 k q) = (V c main_v47 : S128x384.Idx → EReal) (ix2 k q) := by
  have e0 : win1_2.index t (0 : Fin 2) = 0 := (origin_ t).1
  have e1 : win1_2.index t (1 : Fin 2) = 0 := (origin_ t).2.1
  unfold iblk1
  rw [View.read_apply]
  show (V c main_v47 : S128x384.Idx → EReal) _ = _
  refine congrArg _ (funext fun a => Fin.ext ?_)
  match a with
  | ⟨0, _⟩ => show win1_2.index t (0 : Fin 2) * 128 + 1 * k.val = k.val; rw [e0]; omega
  | ⟨1, _⟩ => show win1_2.index t (1 : Fin 2) * 384 + 1 * q.val = q.val; rw [e1]; omega

/-- The hidden-weight block at every point is the whole array. -/
theorem blk_wh (c : Dev nD) (t : Fin cfg1.N) (k : Fin 128) (q : Fin 384) :
    (iblk1 V c 3 t : S128x384.Idx → EReal) (ix2 k q) = (V c main_v48 : S128x384.Idx → EReal) (ix2 k q) := by
  have e0 : win1_3.index t (0 : Fin 2) = 0 := (origin_ t).2.2.1
  have e1 : win1_3.index t (1 : Fin 2) = 0 := (origin_ t).2.2.2.1
  unfold iblk1
  rw [View.read_apply]
  show (V c main_v48 : S128x384.Idx → EReal) _ = _
  refine congrArg _ (funext fun a => Fin.ext ?_)
  match a with
  | ⟨0, _⟩ => show win1_3.index t (0 : Fin 2) * 128 + 1 * k.val = k.val; rw [e0]; omega
  | ⟨1, _⟩ => show win1_3.index t (1 : Fin 2) * 384 + 1 * q.val = q.val; rw [e1]; omega

/-- The input-bias block at every point is the whole row. -/
theorem blk_bi (c : Dev nD) (t : Fin cfg1.N) (k : Fin 1) (q : Fin 384) :
    (iblk1 V c 4 t : S1x384.Idx → EReal) (ix2 k q) = (V c main_v49 : S1x384.Idx → EReal) (ix2 k q) := by
  have e0 : win1_4.index t (0 : Fin 2) = 0 := (origin_ t).2.2.2.2.1
  have e1 : win1_4.index t (1 : Fin 2) = 0 := (origin_ t).2.2.2.2.2.1
  unfold iblk1
  rw [View.read_apply]
  show (V c main_v49 : S1x384.Idx → EReal) _ = _
  refine congrArg _ (funext fun a => Fin.ext ?_)
  match a with
  | ⟨0, _⟩ => show win1_4.index t (0 : Fin 2) * 1 + 1 * k.val = k.val; rw [e0]; omega
  | ⟨1, _⟩ => show win1_4.index t (1 : Fin 2) * 384 + 1 * q.val = q.val; rw [e1]; omega

/-- The hidden-bias block at every point is the whole row. -/
theorem blk_bh (c : Dev nD) (t : Fin cfg1.N) (k : Fin 1) (q : Fin 384) :
    (iblk1 V c 5 t : S1x384.Idx → EReal) (ix2 k q) = (V c main_v50 : S1x384.Idx → EReal) (ix2 k q) := by
  have e0 : win1_5.index t (0 : Fin 2) = 0 := (origin_ t).2.2.2.2.2.2.1
  have e1 : win1_5.index t (1 : Fin 2) = 0 := (origin_ t).2.2.2.2.2.2.2
  unfold iblk1
  rw [View.read_apply]
  show (V c main_v50 : S1x384.Idx → EReal) _ = _
  refine congrArg _ (funext fun a => Fin.ext ?_)
  match a with
  | ⟨0, _⟩ => show win1_5.index t (0 : Fin 2) * 1 + 1 * k.val = k.val; rw [e0]; omega
  | ⟨1, _⟩ => show win1_5.index t (1 : Fin 2) * 384 + 1 * q.val = q.val; rw [e1]; omega

/-- What point t writes back is block t of the cell of the whole arrays. -/
theorem flushed_eq (c : Dev nD) (t : Fin cfg1.N) :
    (dat1 V c).flushed 6 t = ((cfg1.win 6).blk t).view.read (Elt Ideal) (cellOf V c) := by
  show (cfg1.win 6).cut (grid1.coords t) ((dat1 V c).after 6 t) = _
  rw [after1_6]
  unfold out1_6
  rw [View.canon_unit_zero hz]
  simp only [View.ld_unit_zero (S := S1000x128) hz, View.ld_unit_zero (S := S128x384) hz, View.ld_unit_zero (S := S1x384) hz]
  have e0 := (where_ t).2.2.2.2.1
  have e1 := (where_ t).2.2.2.2.2
  funext j
  obtain ⟨p, q, rfl⟩ : ∃ (p : Fin 1000) (q : Fin 128), j = ix2 p q := ⟨j 0, j 1, @eq_ix2 1000 128 j⟩
  rw [View.read_apply]
  refine (Cell.pay_apply (iblk1 V c 0 t) (iblk1 V c 1 t) (iblk1 V c 2 t) (iblk1 V c 3 t) (iblk1 V c 4 t) (iblk1 V c 5 t) p q).trans ?_
  have hr : (⟨(((cfg1.win 6).blk t).view.emb (ix2 p q) 0).val, (((cfg1.win 6).blk t).view.emb (ix2 p q) 0).isLt⟩ : Fin 100000)
      = ⟨1000 * t.val + p.val, by have := t_lt t; omega⟩ := Fin.ext (by
    show win1_6.index t (0 : Fin 2) * 1000 + 1 * p.val = 1000 * t.val + p.val; rw [e0]; omega)
  have hc : (⟨(((cfg1.win 6).blk t).view.emb (ix2 p q) 1).val, (((cfg1.win 6).blk t).view.emb (ix2 p q) 1).isLt⟩ : Fin 128) = q := Fin.ext (by
    show win1_6.index t (1 : Fin 2) * 128 + 1 * q.val = q.val; rw [e1]; omega)
  unfold cellOf Spec.gru
  rw [hr, hc]
  exact Spec.gruAt_congr (M := 1000) (M' := 100000) (iblk1 V c 0 t) (iblk1 V c 1 t) (V c main_v46) (V c main_arg2)
    (iblk1 V c 2 t) (iblk1 V c 3 t) (V c main_v47) (V c main_v48)
    (Cell.row (iblk1 V c 4 t)) (Cell.row (iblk1 V c 5 t)) (Cell.row (V c main_v49)) (Cell.row (V c main_v50))
    p ⟨1000 * t.val + p.val, by have := t_lt t; omega⟩ q
    (fun k => blk_h V c t p k) (fun k => blk_xp V c t p k) (fun k q' => blk_wi V c t k q') (fun k q' => blk_wh V c t k q')
    (fun q' => blk_bi V c t 0 q') (fun q' => blk_bh V c t 0 q')

/-- Every entry of the output lies in the block of the point its row belongs to. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  let t : Fin cfg1.N := ⟨(i 0).val / 1000, by rw [show cfg1.N = 100 from N_1]; omega⟩
  have e0 := (where_ t).2.2.2.2.1
  have e1 := (where_ t).2.2.2.2.2
  refine ⟨t, flush1_6 t, ?_⟩
  show i ∈ ((View.whole main_v51).slice (win1_6.rect t)).set
  rw [View.set_slice_whole, Rect.mem_set_unit]
  intro a
  match a with
  | ⟨0, _⟩ =>
    show win1_6.index t (0 : Fin 2) * 1000 ≤ (i 0).val ∧ (i 0).val < win1_6.index t (0 : Fin 2) * 1000 + 1000
    rw [e0]; show (i 0).val / 1000 * 1000 ≤ (i 0).val ∧ (i 0).val < (i 0).val / 1000 * 1000 + 1000; omega
  | ⟨1, _⟩ =>
    show win1_6.index t (1 : Fin 2) * 128 ≤ (i 1).val ∧ (i 1).val < win1_6.index t (1 : Fin 2) * 128 + 128
    rw [e1]; omega

/-- The output array of the second region ends holding the cell of the arrays it found. -/
theorem final (c : Dev nD) : (dat1 V c).arrAt 6 cfg1.N = cellOf V c :=
  (dat1 V c).arrAt_eq_of_cover 6 _ (fun t _ => flushed_eq V c t) cover

end Cert.KernelIdeal.Second

end
-- ==== Proof.Agg.lean ====
/-
  The neighbourhood aggregation as a function of the projected features.

  Both programs run the same host operations between the projection x·W and the recurrent cell: the
  edge list is extended by one self loop per node, node degrees are counted by a scatter-add of ones,
  each edge is weighted by the inverse square roots of its two end points' degrees (zero where a
  degree is not positive), the projected rows are gathered along the sources, scaled, scatter-added
  into the destinations, and the bias is added.  The projected features enter only through the one
  gather; `agg` is that composition with the projected features as a parameter, in the reference's
  own stages, so that the reference's aggregated features are `agg` of its product by unfolding.
-/
import proofs.«155771_j47330539602429_1_alg».proof.Proof.RefReadP

noncomputable section

namespace Cert.Bridge

open Cert.ReferenceIdeal Cert.ReferenceIdeal.ReadP Idealize.ShloMosaic

variable {F : FTy → Type} [FloatOps F]

/-- Gather the projected rows along the edge sources, scale each by its edge weight, scatter-add
    into the edge destinations, add the bias. -/
def agg (xw : (⟨S100000x128, .f32⟩ : BufTy).Contents (Elt F)) (e : (⟨S2x1600000, .i32⟩ : BufTy).Contents (Elt F))
    (b : (⟨S128, .f32⟩ : BufTy).Contents (Elt F)) : (⟨S100000x128, .f32⟩ : BufTy).Contents (Elt F) :=
  addf (Host.scatterAdd scatter_S100000x128_S1700000x1_S1700000x128_1_0_0_1 (val_main_v41 (F := F)) (val_main_v42 (F := F) e)
      (mulf (Host.gather gather_S100000x128_S1700000x1_S1700000x128_1_0_n_n_0_1_1128 xw (val_main_v36 (F := F) e)) (val_main_v39 (F := F) e)))
    (val_main_v45 (F := F) b)

/-- The reference's aggregated features are `agg` of its own product. -/
theorem ref_agg (x0 : (⟨S100000x128, .f32⟩ : BufTy).Contents (Elt F)) (x1 : (⟨S2x1600000, .i32⟩ : BufTy).Contents (Elt F))
    (x3 : (⟨S128x128, .f32⟩ : BufTy).Contents (Elt F)) (x4 : (⟨S128, .f32⟩ : BufTy).Contents (Elt F)) :
    val_main_v46 (F := F) x0 x1 x3 x4 = agg (val_main_v30 (F := F) x0 x3) x1 x4 := rfl

end Cert.Bridge

end
-- ==== Proof.HostMid.lean ====
/-
  What the second grid region finds in its six input arrays.

  Between the two regions the program runs host operations only: on the first region's output (the
  projected features) the neighbourhood aggregation, and on the arguments two transposes and two
  reshapes.  Each input array of the second region is therefore a pure term of the first region's
  output and of the arguments as launched; the first region leaves the arguments as they were.
-/
import proofs.«155771_j47330539602429_1_alg».proof.Proof.Gen.KernelIdeal.Frame
import proofs.«155771_j47330539602429_1_alg».proof.Proof.Agg
import Idealize.ShloMosaic.Lib.StableHlo.Run

set_option maxRecDepth 16384

noncomputable section

namespace Cert.KernelIdeal.Between

open Cert.KernelIdeal Cert.KernelIdeal.Gen
open Idealize.ShloMosaic Idealize.ShloMosaic.TcCoe Idealize.SL.Sem Idealize.ShloMosaic.StableHlo

/-- Read what is left of the operations' results after the one simplification pass (the reshapes and
    what they read), outermost first. -/
local macro "rest_results" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

variable {F : FTy → Type} [FloatOps F]
variable (m : (ℓ : Loc nD τ sig) → Buf (Elt F) ℓ) (ρ : Dev nD → PrngReg)

/-- The aggregated features: the aggregation of the first region's output. -/
theorem found_h (c : Dev nD) :
    V4 m ρ c main_v46 = Cert.Bridge.agg (V1 m ρ c main_v0) (m ((c : Thread nD τ).loc main_arg1)) (m ((c : Thread nD τ).loc main_arg4)) := by
  show StableHlo.after hostOps1_2 (StableHlo.after hostOps1_1 (StableHlo.after hostOps1 (W1 m ρ c))) (Proc.devRef .tc main_v46) = _
  dsimp only [hostOps1_2, hostOps1_1, hostOps1]
  after_results_simp
  rest_results
  rw [W1_of_ne m ρ c main_arg1 (by decide), W1_of_ne m ρ c main_arg4 (by decide)]
  rfl

/-- The previous state is the argument as launched. -/
theorem found_xp (c : Dev nD) :
    V4 m ρ c main_arg2 = m ((c : Thread nD τ).loc main_arg2) := by
  show StableHlo.after hostOps1_2 (StableHlo.after hostOps1_1 (StableHlo.after hostOps1 (W1 m ρ c))) (Proc.devRef .tc main_arg2) = _
  dsimp only [hostOps1_2, hostOps1_1, hostOps1]
  after_results_simp
  rest_results
  exact W1_of_ne m ρ c main_arg2 (by decide)

/-- The input weight, transposed. -/
theorem found_wi (c : Dev nD) :
    V4 m ρ c main_v47 = transpose S128x384 [1, 0] (m ((c : Thread nD τ).loc main_arg5)) transposes_S384x128_S128x384_1_0 := by
  show StableHlo.after hostOps1_2 (StableHlo.after hostOps1_1 (StableHlo.after hostOps1 (W1 m ρ c))) (Proc.devRef .tc main_v47) = _
  dsimp only [hostOps1_2, hostOps1_1, hostOps1]
  after_results_simp
  rest_results
  rw [W1_of_ne m ρ c main_arg5 (by decide)]

/-- The hidden weight, transposed. -/
theorem found_wh (c : Dev nD) :
    V4 m ρ c main_v48 = transpose S128x384 [1, 0] (m ((c : Thread nD τ).loc main_arg6)) transposes_S384x128_S128x384_1_0 := by
  show StableHlo.after hostOps1_2 (StableHlo.after hostOps1_1 (StableHlo.after hostOps1 (W1 m ρ c))) (Proc.devRef .tc main_v48) = _
  dsimp only [hostOps1_2, hostOps1_1, hostOps1]
  after_results_simp
  rest_results
  rw [W1_of_ne m ρ c main_arg6 (by decide)]

/-- The input bias as one row. -/
theorem found_bi (c : Dev nD) :
    V4 m ρ c main_v49 = shapeCast S1x384 (m ((c : Thread nD τ).loc main_arg7)) shapeCasts_S384_S1x384 := by
  show StableHlo.after hostOps1_2 (StableHlo.after hostOps1_1 (StableHlo.after hostOps1 (W1 m ρ c))) (Proc.devRef .tc main_v49) = _
  dsimp only [hostOps1_2, hostOps1_1, hostOps1]
  after_results_simp
  rest_results
  rw [W1_of_ne m ρ c main_arg7 (by decide)]
  rfl

/-- The hidden bias as one row. -/
theorem found_bh (c : Dev nD) :
    V4 m ρ c main_v50 = shapeCast S1x384 (m ((c : Thread nD τ).loc main_arg8)) shapeCasts_S384_S1x384 := by
  show StableHlo.after hostOps1_2 (StableHlo.after hostOps1_1 (StableHlo.after hostOps1 (W1 m ρ c))) (Proc.devRef .tc main_v50) = _
  dsimp only [hostOps1_2, hostOps1_1, hostOps1]
  after_results_simp
  rest_results
  rw [W1_of_ne m ρ c main_arg8 (by decide)]
  rfl

end Cert.KernelIdeal.Between

end
-- ==== Proof.RefGru.lean ====
/-
  The reference's recurrent cell, read at one entry.

  After the aggregation the reference forms the two [100000,384] gate pre-activations on the host
  (a product with the transposed weight plus the bias repeated down the rows), cuts each into three
  128-wide bands, spells the logistic function as 1 / (1 + e^(−x)) and combines.  Operation by
  operation, at entry (r, j), that is the specification's `gruAt` on the whole arrays: band b of
  column j reads column 128·b + j of the wide matrix, whose product entry is the sum over the
  contracted axis of row r against that column.
-/
import proofs.«155771_j47330539602429_1_alg».proof.Proof.RefReadP
import proofs.«155771_j47330539602429_1_alg».proof.Proof.GruSpec

noncomputable section

namespace Cert.Bridge.RefCell

open Cert.ReferenceIdeal Cert.ReferenceIdeal.ReadP Idealize.ShloMosaic Idealize.ShloMosaic.ValueIdx

/-! ### The index arithmetic: which entries of the operands an entry of a band reads -/

theorem gi_lo_l (r : Fin 100000) (j k : Fin 128) : lidx_main_v48 (idx_main_v57 (ix2 r j)) k = ix2 r k :=
  funext fun a => by match a with | ⟨0, _⟩ => rfl | ⟨1, _⟩ => rfl
theorem gi_lo_r (r : Fin 100000) (j k : Fin 128) : ridx_main_v48 (idx_main_v57 (ix2 r j)) k = ix2 k (Spec.lo j) :=
  funext fun a => Fin.ext (by match a with | ⟨0, _⟩ => rfl | ⟨1, _⟩ => (show _ = _; simp [Spec.lo]))
theorem gi_lo_b (r : Fin 100000) (j : Fin 128) : idx_main_v49 (idx_main_v50 (idx_main_v57 (ix2 r j))) = ix1 (Spec.lo j) :=
  funext fun a => Fin.ext (by match a with | ⟨0, _⟩ => (show _ = _; simp [Spec.lo]))

theorem gi_mid_l (r : Fin 100000) (j k : Fin 128) : lidx_main_v48 (idx_main_v58 (ix2 r j)) k = ix2 r k :=
  funext fun a => by match a with | ⟨0, _⟩ => rfl | ⟨1, _⟩ => rfl
theorem gi_mid_r (r : Fin 100000) (j k : Fin 128) : ridx_main_v48 (idx_main_v58 (ix2 r j)) k = ix2 k (Spec.mid j) :=
  funext fun a => Fin.ext (by match a with | ⟨0, _⟩ => rfl | ⟨1, _⟩ => (show _ = _; simp [Spec.mid]))
theorem gi_mid_b (r : Fin 100000) (j : Fin 128) : idx_main_v49 (idx_main_v50 (idx_main_v58 (ix2 r j))) = ix1 (Spec.mid j) :=
  funext fun a => Fin.ext (by match a with | ⟨0, _⟩ => (show _ = _; simp [Spec.mid]))

theorem gi_hi_l (r : Fin 100000) (j k : Fin 128) : lidx_main_v48 (idx_main_v59 (ix2 r j)) k = ix2 r k :=
  funext fun a => by match a with | ⟨0, _⟩ => rfl | ⟨1, _⟩ => rfl
theorem gi_hi_r (r : Fin 100000) (j k : Fin 128) : ridx_main_v48 (idx_main_v59 (ix2 r j)) k = ix2 k (Spec.hi j) :=
  funext fun a => Fin.ext (by match a with | ⟨0, _⟩ => rfl | ⟨1, _⟩ => (show _ = _; simp [Spec.hi]))
theorem gi_hi_b (r : Fin 100000) (j : Fin 128) : idx_main_v49 (idx_main_v50 (idx_main_v59 (ix2 r j))) = ix1 (Spec.hi j) :=
  funext fun a => Fin.ext (by match a with | ⟨0, _⟩ => (show _ = _; simp [Spec.hi]))

theorem gh_lo_l (r : Fin 100000) (j k : Fin 128) : lidx_main_v53 (idx_main_v60 (ix2 r j)) k = ix2 r k :=
  funext fun a => by match a with | ⟨0, _⟩ => rfl | ⟨1, _⟩ => rfl
theorem gh_lo_r (r : Fin 100000) (j k : Fin 128) : ridx_main_v53 (idx_main_v60 (ix2 r j)) k = ix2 k (Spec.lo j) :=
  funext fun a => Fin.ext (by match a with | ⟨0, _⟩ => rfl | ⟨1, _⟩ => (show _ = _; simp [Spec.lo]))
theorem gh_lo_b (r : Fin 100000) (j : Fin 128) : idx_main_v54 (idx_main_v55 (idx_main_v60 (ix2 r j))) = ix1 (Spec.lo j) :=
  funext fun a => Fin.ext (by match a with | ⟨0, _⟩ => (show _ = _; simp [Spec.lo]))

theorem gh_mid_l (r : Fin 100000) (j k : Fin 128) : lidx_main_v53 (idx_main_v61 (ix2 r j)) k = ix2 r k :=
  funext fun a => by match a with | ⟨0, _⟩ => rfl | ⟨1, _⟩ => rfl
theorem gh_mid_r (r : Fin 100000) (j k : Fin 128) : ridx_main_v53 (idx_main_v61 (ix2 r j)) k = ix2 k (Spec.mid j) :=
  funext fun a => Fin.ext (by match a with | ⟨0, _⟩ => rfl | ⟨1, _⟩ => (show _ = _; simp [Spec.mid]))
theorem gh_mid_b (r : Fin 100000) (j : Fin 128) : idx_main_v54 (idx_main_v55 (idx_main_v61 (ix2 r j))) = ix1 (Spec.mid j) :=
  funext fun a => Fin.ext (by match a with | ⟨0, _⟩ => (show _ = _; simp [Spec.mid]))

theorem gh_hi_l (r : Fin 100000) (j k : Fin 128) : lidx_main_v53 (idx_main_v62 (ix2 r j)) k = ix2 r k :=
  funext fun a => by match a with | ⟨0, _⟩ => rfl | ⟨1, _⟩ => rfl
theorem gh_hi_r (r : Fin 100000) (j k : Fin 128) : ridx_main_v53 (idx_main_v62 (ix2 r j)) k = ix2 k (Spec.hi j) :=
  funext fun a => Fin.ext (by match a with | ⟨0, _⟩ => rfl | ⟨1, _⟩ => (show _ = _; simp [Spec.hi]))
theorem gh_hi_b (r : Fin 100000) (j : Fin 128) : idx_main_v54 (idx_main_v55 (idx_main_v62 (ix2 r j))) = ix1 (Spec.hi j) :=
  funext fun a => Fin.ext (by match a with | ⟨0, _⟩ => (show _ = _; simp [Spec.hi]))

theorem xw_l (r : Fin 100000) (c k : Fin 128) : lidx_main_v30 (ix2 r c) k = ix2 r k :=
  funext fun a => by match a with | ⟨0, _⟩ => rfl | ⟨1, _⟩ => rfl
theorem xw_r (r : Fin 100000) (c k : Fin 128) : ridx_main_v30 (ix2 r c) k = ix2 k c :=
  funext fun a => by match a with | ⟨0, _⟩ => rfl | ⟨1, _⟩ => rfl

/-- The reference's projection of the node features is the product of the specification. -/
theorem ref_xw (x0 : (⟨S100000x128, .f32⟩ : BufTy).Contents (Elt Ideal)) (x3 : (⟨S128x128, .f32⟩ : BufTy).Contents (Elt Ideal)) :
    val_main_v30 (F := Ideal) x0 x3 = Spec.xw x0 x3 := by
  funext i
  obtain ⟨r, c, rfl⟩ : ∃ (r : Fin 100000) (c : Fin 128), i = ix2 r c := ⟨i 0, i 1, @eq_ix2 100000 128 i⟩
  rw [val_main_v30_apply, Spec.xw_apply]
  simp only [xw_l, xw_r]
  rfl

/-- The reference's result is the cell of its aggregated features, the previous state, its two
    transposed weights and the two biases. -/
theorem ref_cell (x0 : (⟨S100000x128, .f32⟩ : BufTy).Contents (Elt Ideal)) (x1 : (⟨S2x1600000, .i32⟩ : BufTy).Contents (Elt Ideal))
    (x2 : (⟨S100000x128, .f32⟩ : BufTy).Contents (Elt Ideal)) (x3 : (⟨S128x128, .f32⟩ : BufTy).Contents (Elt Ideal))
    (x4 : (⟨S128, .f32⟩ : BufTy).Contents (Elt Ideal)) (x5 x6 : (⟨S384x128, .f32⟩ : BufTy).Contents (Elt Ideal))
    (x7 x8 : (⟨S384, .f32⟩ : BufTy).Contents (Elt Ideal)) :
    val_main_v84 (F := Ideal) x0 x1 x2 x3 x4 x5 x6 x7 x8
      = Spec.gru (val_main_v46 (F := Ideal) x0 x1 x3 x4) x2 (val_main_v47 (F := Ideal) x5) (val_main_v52 (F := Ideal) x6) x7 x8 := by
  funext i
  obtain ⟨r, j, rfl⟩ : ∃ (r : Fin 100000) (j : Fin 128), i = ix2 r j := ⟨i 0, i 1, @eq_ix2 100000 128 i⟩
  rw [val_main_v84_apply, val_main_v82_apply, val_main_v83_apply, val_main_v81_apply, val_main_v80_apply,
    val_main_cst_13_apply, val_main_v79_apply, val_main_v78_apply, val_main_v77_apply, val_main_v76_apply,
    val_main_v75_apply, val_main_cst_12_apply, val_main_v74_apply, val_main_v73_apply, val_main_cst_11_apply,
    val_main_v72_apply, val_main_v71_apply, val_main_v70_apply, val_main_v69_apply, val_main_v68_apply,
    val_main_cst_10_apply, val_main_v67_apply, val_main_v66_apply, val_main_cst_9_apply, val_main_v65_apply,
    val_main_v64_apply, val_main_v63_apply, val_main_v62_apply, val_main_v61_apply, val_main_v60_apply,
    val_main_v59_apply, val_main_v58_apply, val_main_v57_apply, val_main_v56_apply, val_main_v56_apply,
    val_main_v56_apply, val_main_v55_apply, val_main_v55_apply, val_main_v55_apply, val_main_v54_apply,
    val_main_v54_apply, val_main_v54_apply, val_main_v53_apply, val_main_v53_apply, val_main_v53_apply,
    val_main_v51_apply, val_main_v51_apply, val_main_v51_apply, val_main_v50_apply, val_main_v50_apply,
    val_main_v50_apply, val_main_v49_apply, val_main_v49_apply, val_main_v49_apply, val_main_v48_apply,
    val_main_v48_apply, val_main_v48_apply]
  simp only [gi_lo_l, gi_lo_r, gi_lo_b, gi_mid_l, gi_mid_r, gi_mid_b, gi_hi_l, gi_hi_r, gi_hi_b,
    gh_lo_l, gh_lo_r, gh_lo_b, gh_mid_l, gh_mid_r, gh_mid_b, gh_hi_l, gh_hi_r, gh_hi_b]
  simp only [Ideal.addf_def, Ideal.subf_def, Ideal.mulf_def, Ideal.hostDivf_def, Ideal.hostUnary_exp_def, Ideal.hostNegf_def,
    Ideal.negf_def, Ideal.hostUnary_tanh_def, Ideal.ofBits_def]
  rw [Spec.gru_apply]
  unfold Spec.gruAt Spec.gate Spec.mm Spec.sig
  rfl

end Cert.Bridge.RefCell

end
-- ==== Proof.Bridge.lean ====
/-
  The two programs compute one function of the nine arguments.

  `whole` is that function over the extended reals: project the node features by the convolution's
  weight, aggregate over the graph (the host operations both programs share), and apply the
  recurrent cell with the previous state.  The idealized kernel computes the projection and the cell
  block by block on the grid and the aggregation on the host between them; the idealized reference
  computes all three on the host.  Both results are `whole` of the arguments.
-/
import proofs.«155771_j47330539602429_1_alg».proof.Proof.KRun
import proofs.«155771_j47330539602429_1_alg».proof.Proof.Region0
import proofs.«155771_j47330539602429_1_alg».proof.Proof.Region1
import proofs.«155771_j47330539602429_1_alg».proof.Proof.HostMid
import proofs.«155771_j47330539602429_1_alg».proof.Proof.RefGru
import proofs.«155771_j47330539602429_1_alg».proof.Proof.Agg

set_option maxRecDepth 16384

noncomputable section

namespace Cert.Bridge

open Idealize.ShloMosaic Idealize.ShloMosaic.TcCoe Idealize.SL.Sem Idealize.ShloMosaic.ValueIdx

/-- Projection, aggregation, recurrent cell. -/
def whole (x0 : (⟨Cert.ReferenceIdeal.S100000x128, .f32⟩ : BufTy).Contents (Elt Ideal)) (x1 : (⟨Cert.ReferenceIdeal.S2x1600000, .i32⟩ : BufTy).Contents (Elt Ideal))
    (x2 : (⟨Cert.ReferenceIdeal.S100000x128, .f32⟩ : BufTy).Contents (Elt Ideal)) (x3 : (⟨Cert.ReferenceIdeal.S128x128, .f32⟩ : BufTy).Contents (Elt Ideal))
    (x4 : (⟨Cert.ReferenceIdeal.S128, .f32⟩ : BufTy).Contents (Elt Ideal)) (x5 x6 : (⟨Cert.ReferenceIdeal.S384x128, .f32⟩ : BufTy).Contents (Elt Ideal))
    (x7 x8 : (⟨Cert.ReferenceIdeal.S384, .f32⟩ : BufTy).Contents (Elt Ideal)) : (⟨Cert.ReferenceIdeal.S100000x128, .f32⟩ : BufTy).Contents (Elt Ideal) :=
  Spec.gru (agg (F := Ideal) (Spec.xw x0 x3) x1 x4) x2 (Cert.ReferenceIdeal.ReadP.val_main_v47 (F := Ideal) x5) (Cert.ReferenceIdeal.ReadP.val_main_v52 (F := Ideal) x6) x7 x8

/-- A row of 384 entries reshaped to [1,384] and read back as a row is the row. -/
theorem row_reshape (v : Cert.KernelIdeal.S384.Idx → EReal) (h : Cert.KernelIdeal.S384.ShapeCasts Cert.KernelIdeal.S1x384) :
    Cert.KernelIdeal.Cell.row (shapeCast Cert.KernelIdeal.S1x384 v h) = v := by
  funext i
  obtain ⟨q, rfl⟩ : ∃ q : Fin 384, i = ix1 q := ⟨i 0, @eq_ix1 384 i⟩
  unfold Cert.KernelIdeal.Cell.row
  exact shapeCast_apply v h (ix2 (0 : Fin 1) q) (ix1 q) (by
    rw [Shape.rowMajor_val_one, Shape.rowMajor_val_two]
    show q.val = 0 * 384 + q.val
    omega)

section Kernel

variable (m : (ℓ : Loc Cert.KernelIdeal.nD Cert.KernelIdeal.τ Cert.KernelIdeal.sig) → Buf (Elt Ideal) ℓ) (ρ : Dev Cert.KernelIdeal.nD → PrngReg)

/-- The result array of the idealized kernel holds `whole` of the arguments as launched. -/
theorem kernel_value (c : Dev Cert.KernelIdeal.nD) :
    (Cert.KernelIdeal.Gen.dat1 (Cert.KernelIdeal.Gen.V4 m ρ) c).arrAt 6 Cert.KernelIdeal.cfg1.N = whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  rw [Cert.KernelIdeal.Second.final (Cert.KernelIdeal.Gen.V4 m ρ) c]
  unfold Cert.KernelIdeal.Second.cellOf
  rw [Cert.KernelIdeal.Between.found_h, Cert.KernelIdeal.Between.found_xp, Cert.KernelIdeal.Between.found_wi, Cert.KernelIdeal.Between.found_wh, Cert.KernelIdeal.Between.found_bi, Cert.KernelIdeal.Between.found_bh]
  rw [show Cert.KernelIdeal.Gen.V1 m ρ c Cert.KernelIdeal.main_v0 = Spec.xw (m ((c.tc : Thread Cert.KernelIdeal.nD Cert.KernelIdeal.τ).loc Cert.KernelIdeal.main_arg0)) (m ((c.tc : Thread Cert.KernelIdeal.nD Cert.KernelIdeal.τ).loc Cert.KernelIdeal.main_arg3))
    from (Cert.KernelIdeal.Gen.W1_arr m ρ c 2).trans (Cert.KernelIdeal.First.final m ρ c)]
  rw [row_reshape, row_reshape]
  rfl

/-- The idealized kernel's run: it terminates with `whole` of the arguments in the result and the arguments unchanged. -/
theorem kernel_run : θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v51) = whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run (Cert.KernelIdeal.defs (F := Ideal)) _ _).mono (fun r h c => ⟨(h c).1.trans (kernel_value m ρ c), (h c).2⟩) (Cert.KernelIdeal.RunV.run_out m ρ)

end Kernel

/-- The idealized reference's result term is `whole` of its arguments. -/
theorem ref_value (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v84 m c = whole (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) := by
  rw [Cert.ReferenceIdeal.ReadP.val_main_v84_eq, RefCell.ref_cell, ref_agg, RefCell.ref_xw]
  rfl

end Cert.Bridge

end
-- ==== Proof.lean ====
/-
  The five claims for the graph-convolution + recurrent-cell kernel against its reference.

  The three frames are the programs' runs with the result dropped: the two kernel programs by the
  run of their five segments (two grid regions around three host stretches), the reference by the
  run of its host operations.  The idealization rewrote nothing, so it is trivially preserved.  The
  equivalence over the extended reals: both idealized programs end with the one function `whole`
  (projection, aggregation over the graph, recurrent cell) of arguments that agree.  No finiteness
  is used: the two sides are the same sums, the same host operations and the same pointwise
  functions, so they agree on every extended real.
-/
import proofs.«155771_j47330539602429_1_alg».proof.Defs
import proofs.«155771_j47330539602429_1_alg».proof.Proof.Gen.Kernel
import proofs.«155771_j47330539602429_1_alg».proof.Proof.Gen.Kernel.Skeleton
import proofs.«155771_j47330539602429_1_alg».proof.Proof.Gen.Kernel.Launch
import proofs.«155771_j47330539602429_1_alg».proof.Proof.Gen.Kernel.Points
import proofs.«155771_j47330539602429_1_alg».proof.Proof.Gen.Kernel.Frame
import proofs.«155771_j47330539602429_1_alg».proof.Proof.Gen.KernelIdeal
import proofs.«155771_j47330539602429_1_alg».proof.Proof.Gen.KernelIdeal.Skeleton
import proofs.«155771_j47330539602429_1_alg».proof.Proof.Gen.KernelIdeal.Launch
import proofs.«155771_j47330539602429_1_alg».proof.Proof.Gen.KernelIdeal.Points
import proofs.«155771_j47330539602429_1_alg».proof.Proof.Gen.KernelIdeal.Frame
import proofs.«155771_j47330539602429_1_alg».proof.Proof.Gen.ReferenceIdeal
import proofs.«155771_j47330539602429_1_alg».proof.Proof.Gen.Pre_finite_inputs
import proofs.«155771_j47330539602429_1_alg».proof.Proof.RefReadP
import proofs.«155771_j47330539602429_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both idealized programs end with `whole` of their arguments, which agree. -/
theorem algebraic : Cert.algebraic_KernelIdeal_ReferenceIdeal := by
  intro m ρ m' ρ' _ hagree
  refine ⟨_, Cert.Bridge.kernel_run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8⟩ := hagree c
  rw [Cert.Bridge.ref_value m' c, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
